-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048 : Shape := ⟨2, ![16, 2048]⟩
abbrev S32000x64 : Shape := ⟨2, ![32000, 64]⟩
abbrev S_ : Shape := ⟨0, ![]⟩

class Facts : Prop where
  bcast_S_S32000x64 : S_.BroadcastsInDim S32000x64 (![] : Fin 0 → Fin S32000x64.rank)
  reducesTo_S32000x64_S_d0_1 : S32000x64.ReducesTo [0, 1] S_
  h_S_ : 0 < S_.numel

variable [Facts]

def fn {F : FTy → Type} [FloatOps F] (main_arg0 : IVec S16x2048 32) (main_arg1 : FVec F S32000x64 .f32) : IVec S_ 1 :=
  let main_v0 : FVec F S32000x64 .f32 := Host.absf main_arg1
  let main_cst : FVec F S_ .f32 := constant S_ .f32 0x7F800000#32
  let main_v1 : FVec F S32000x64 .f32 := broadcastInDim S32000x64 ![] bcast_S_S32000x64 main_cst
  let main_v2 : IVec S32000x64 1 := cmpf .olt main_v0 main_v1
  let main_c : IVec S_ 1 := constantI S_ 1 1#1
  let main_v3 : IVec S_ 1 := (fun x v => Host.reduce IntOp.andi x v reducesTo_S32000x64_S_d0_1 h_S_) main_v2 main_c
  main_v3
-- ==== Kernel.lean ====
abbrev S16x2048 : Shape := ⟨2, ![16, 2048]⟩
abbrev S32000x64 : Shape := ⟨2, ![32000, 64]⟩
abbrev S_ : Shape := ⟨0, ![]⟩
abbrev S16x2048x1 : Shape := ⟨3, ![16, 2048, 1]⟩
abbrev S16x2048x64 : Shape := ⟨3, ![16, 2048, 64]⟩
abbrev S16x2048x2048 : Shape := ⟨3, ![16, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩

abbrev nBuf : Space → Nat
  | .hbm => 13
  | .vmem => 6
  | .smem => 0
  | _ => 0

abbrev bufTy : (tb : Table) → Fin (tcTables nBuf tb) → BufTy
  | .hbm, ⟨0, _⟩ => ⟨S16x2048, .i32⟩
  | .hbm, ⟨1, _⟩ => ⟨S32000x64, .f32⟩
  | .hbm, ⟨2, _⟩ => ⟨S_, .i32⟩
  | .hbm, ⟨3, _⟩ => ⟨S16x2048, .i32⟩
  | .hbm, ⟨4, _⟩ => ⟨S16x2048, .i1⟩
  | .hbm, ⟨5, _⟩ => ⟨S_, .i32⟩
  | .hbm, ⟨6, _⟩ => ⟨S16x2048, .i32⟩
  | .hbm, ⟨7, _⟩ => ⟨S16x2048, .i32⟩
  | .hbm, ⟨8, _⟩ => ⟨S16x2048, .i32⟩
  | .hbm, ⟨9, _⟩ => ⟨S16x2048x1, .i32⟩
  | .hbm, ⟨10, _⟩ => ⟨S16x2048x64, .f32⟩
  | .hbm, ⟨11, _⟩ => ⟨S16x2048x64, .bf16⟩
  | .hbm, ⟨12, _⟩ => ⟨S16x2048x2048, .f32⟩
  | .local _ .vmem, ⟨0, _⟩ => ⟨S1x512x64, .bf16⟩
  | .local _ .vmem, ⟨1, _⟩ => ⟨S1x512x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x512x2048, .f32⟩
  | .local _ .vmem, ⟨5, _⟩ => ⟨S1x512x2048, .f32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bitsLt_bf16_f32 : FTy.bits .bf16 < FTy.bits .f32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  gather_S32000x64_S16x2048x1_S16x2048x64_2_0_n_n_0_2_164_wf : GatherDims.WF S32000x64 S16x2048x1 S16x2048x64 [2] [0] [] [0] [] 2 ![1, 64]
  dot_S512x64_S2048x64_S512x2048_1_1_0_0_n_n_wf : DotDims.WF S512x64 S2048x64 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .bf16 = 32 ∨ (Rect.block (s := S16x2048x64) S1x512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .bf16 = 32 ∨ (Rect.block (s := S16x2048x64) S1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S16x2048x2048.size a
  hwx0_2 : ∀ i : grid0.Coords, EltTy.bits .f32 = 32 ∨ (Rect.block (s := S16x2048x2048) S1x512x2048.size (cc0_transform_2 i) (hinb0_2 i)).WholeWords (EltTy.packing .f32)

variable [Facts₀]

def gather_S32000x64_S16x2048x1_S16x2048x64_2_0_n_n_0_2_164 : GatherDims S32000x64 S16x2048x1 S16x2048x64 where
  offsetDims := [2]
  collapsedSliceDims := [0]
  operandBatchingDims := []
  startIndicesBatchingDims := []
  startIndexMap := [0]
  indexVectorDim := 2
  sliceSizes := ![1, 64]
  wf := gather_S32000x64_S16x2048x1_S16x2048x64_2_0_n_n_0_2_164_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf

abbrev win0_0 : Pipeline.Window sig grid0 :=
  Pipeline.Window.ofSpec (Memref.whole main_v7) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048 : Shape := ⟨2, ![16, 2048]⟩
abbrev S32000x64 : Shape := ⟨2, ![32000, 64]⟩
abbrev S_ : Shape := ⟨0, ![]⟩
abbrev S16x2048x1 : Shape := ⟨3, ![16, 2048, 1]⟩
abbrev S16x2048x64 : Shape := ⟨3, ![16, 2048, 64]⟩
abbrev S16x2048x2048 : Shape := ⟨3, ![16, 2048, 2048]⟩

abbrev nBuf : Space → Nat
  | .hbm => 16
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S32000x64, .f32⟩
  | .hbm, ⟨2, _⟩ => ⟨S_, .i32⟩
  | .hbm, ⟨3, _⟩ => ⟨S16x2048, .i32⟩
  | .hbm, ⟨4, _⟩ => ⟨S16x2048, .i1⟩
  | .hbm, ⟨5, _⟩ => ⟨S_, .i32⟩
  | .hbm, ⟨6, _⟩ => ⟨S16x2048, .i32⟩
  | .hbm, ⟨7, _⟩ => ⟨S16x2048, .i32⟩
  | .hbm, ⟨8, _⟩ => ⟨S16x2048, .i32⟩
  | .hbm, ⟨9, _⟩ => ⟨S16x2048x1, .i32⟩
  | .hbm, ⟨10, _⟩ => ⟨S16x2048x64, .f32⟩
  | .hbm, ⟨11, _⟩ => ⟨S16x2048x2048, .f32⟩
  | .hbm, ⟨12, _⟩ => ⟨S_, .f32⟩
  | .hbm, ⟨13, _⟩ => ⟨S_, .f32⟩
  | .hbm, ⟨14, _⟩ => ⟨S16x2048x2048, .f32⟩
  | .hbm, ⟨15, _⟩ => ⟨S16x2048x2048, .f32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S_S16x2048x2048 : S_.BroadcastsInDim S16x2048x2048 (![] : Fin 0 → Fin S16x2048x2048.rank)
  gather_S32000x64_S16x2048x1_S16x2048x64_2_0_n_n_0_2_164_wf : GatherDims.WF S32000x64 S16x2048x1 S16x2048x64 [2] [0] [] [0] [] 2 ![1, 64]
  dot_S16x2048x64_S16x2048x64_S16x2048x2048_2_2_1_1_0_0_wf : DotDims.WF S16x2048x64 S16x2048x64 S16x2048x2048 [2] [2] [1] [1] [0] [0]

variable [Facts₀]

def gather_S32000x64_S16x2048x1_S16x2048x64_2_0_n_n_0_2_164 : GatherDims S32000x64 S16x2048x1 S16x2048x64 where
  offsetDims := [2]
  collapsedSliceDims := [0]
  operandBatchingDims := []
  startIndicesBatchingDims := []
  startIndexMap := [0]
  indexVectorDim := 2
  sliceSizes := ![1, 64]
  wf := gather_S32000x64_S16x2048x1_S16x2048x64_2_0_n_n_0_2_164_wf
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf

class Facts : Prop extends Facts₀ where

variable [Facts]
-- ==== Proof.LibFrameShared.lean ====
/-
  The frame run of a one-region pipeline kernel that is handed ONE array through SEVERAL input windows.

  When two input windows stage blocks of the same array, the array's buffer cannot be held once per window at the
  full share. The buffers behind the windows' arrays, each held once at the full share at the region-entry
  contents, are instead dealt among the windows by the certificate (`hsplit`): an array read through two windows
  is held at one half of the full share by each. Everything else is as for a kernel with distinct arrays: the
  kernel names no semaphore, transfer or scratch of its own, so the invariant carried from point to point is the
  scoped rest alone, every unscoped buffer that is no window's array bypasses the region, and the final state has
  each window's array at what the write-backs leave there and every bypassing buffer as the region found it.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run for windows that may share arrays. `hsplit` deals the buffers behind the arrays, each whole at
    the full share at the entry contents `V`, among the windows; the invariant is the scoped rest at every point
    (`hΦ`). The post is `FramePost`: every window's array at `arrAt w N` (windows on one array agree), every other
    unscoped buffer at `V`. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr
      · iempintro
      · iexact H)
    (hin := fun c => by
      rw [hΦ]
      iintro ⟨-, H⟩
      iexact H)
    (hout := fun c => by
      rw [hΦ]
      iintro H
      isplitr
      · iempintro
      · iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline

end
-- ==== Proof.FrameK.lean ====
/-
  The frame of `Kernel`: every weakly fair execution of @main terminates without a fault, and the argument arrays
  end unchanged; beyond that, the run names what the result array holds at the end.

  @main computes the embedding array E (a gather of the weight rows, converted) by ten host operations and then runs
  one pipelined region over a 16 × 4 grid. The region stages E TWICE: window 0 takes the 512 query rows of batch b
  that the point (b, j) works on, window 1 all 2048 rows of batch b; window 2 is the 512 × 2048 slab of the result
  the point writes. Because both input windows stage blocks of one array, E's buffer is held at one half of the
  full share by each of them (`deal`). The body loads both blocks, stores one value computed from them over the
  whole output block, and keeps nothing from point to point.
-/
import proofs.«149316_j42348377539154_1_alg».proof.Proof.Gen.Kernel.Launch
import proofs.«149316_j42348377539154_1_alg».proof.Proof.Gen.Kernel.Skeleton
import proofs.«149316_j42348377539154_1_alg».proof.Proof.Gen.Kernel.Points
import proofs.«149316_j42348377539154_1_alg».proof.Proof.LibFrameShared
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch memory after the ten host operations. -/
abbrev entry (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem main_upto (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host operation writes the index array: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, Finset.mem_singleton]
    repeat' apply And.intro
    all_goals exact StableHlo.devRef_ne_of_ne (by decide)))

/-- No host operation writes the weight array: the region finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The query window's staging buffer holds the point's query block, for any proof data over the entry contents whose
    body leaves that block in place. It is fetched at every point. -/
theorem found_q {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The key window's staging buffer holds the batch's whole key block at every point: it is fetched when the batch
    changes, and between fetches its index does not move and the body leaves the block in place. -/
theorem found_k {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The body -/

abbrev allQ : Rect S1x512x64 := Rect.unit (s := S1x512x64) ![0, 0, 0] S1x512x64.size inb_S1x512x64_S1x512x64_0_0_0
abbrev allK : Rect S1x2048x64 := Rect.unit (s := S1x2048x64) ![0, 0, 0] S1x2048x64.size inb_S1x2048x64_S1x2048x64_0_0_0
abbrev allO : Rect S1x512x2048 := Rect.unit (s := S1x512x2048) ![0, 0, 0] S1x512x2048.size inb_S1x512x2048_S1x512x2048_0_0_0

/-- What the body leaves in the output window's buffer, from the two input blocks: its one store, over the whole
    block, of the payload of the two loads. -/
def slab (x0 : Vec F S1x512x64 .bf16) (x1 : Vec F S1x2048x64 .bf16) : Vec F S1x512x2048 .f32 :=
  View.canon [⟨allO, k0_pay1 (View.ld x0 allQ) (View.ld x1 allK)⟩]

/-- The one store covers the buffer. -/
theorem slab_cover (p0 : Vec F S1x512x2048 .f32) (y : S1x512x2048.Idx) :
    ∃ pc ∈ ([⟨allO, p0⟩] : List (View.Piece (Elt F) S1x512x2048 .f32)), y ∈ pc.1.set :=
  View.cover_of_tiled [⟨allO, p0⟩] S1x512x2048.size (by rfl) y

set_option maxHeartbeats 1000000 in
/-- The body on whole staging memrefs — the inputs' at contents `x0`, `x1`, the output's at anything — runs to its
    return with the inputs' as they were and the output's at `slab x0 x1`. -/
theorem body_run (c : Dev nD) (E : Set ℕ) (i : grid0.Coords) (arg2 : Memref sig .tc .vmem S1x512x64 .bf16) (harg2 : arg2.IsWhole)
    (arg3 : Memref sig .tc .vmem S1x2048x64 .bf16) (harg3 : arg3.IsWhole) (arg4 : Memref sig .tc .vmem S1x512x2048 .f32) (harg4 : arg4.IsWhole)
    (x0 : Vec F S1x512x64 .bf16) (x1 : Vec F S1x2048x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (slab x0 x1)) -∗ K ⟨⟩))
      ⊢ wp frame (wpE (defs₀ (F := F)) Variants.none c none) E (cc0__synergy_kernel i arg2 harg2 arg3 harg3 arg4 harg4) K := by
  simp only [cc0__synergy_kernel_eq_skeleton]; unfold cc0__synergy_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (slab_cover _)

/-! ## The proof data -/

/-- The pipeline's proof data on core `c`: the arrays as the region finds them; after the body each input's buffer
    at its block and the output's at `slab` of the two blocks; the invariant the scoped rest (the kernel has no
    scratch); nothing owed; the embedding array held half by the query window and half by the key window. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => slab (blockAt m c 0 t) (blockAt m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = entry m c (Pipeline.arrRef spec0 w) := by
  dsimp only [dats]

theorem after_q (c : Dev nD) (t : Fin cfg0.N) : (dats m 0 c).after 0 t = blockAt m c 0 t := by dsimp only [dats]
theorem after_k (c : Dev nD) (t : Fin cfg0.N) : (dats m 0 c).after 1 t = blockAt m c 1 t := by dsimp only [dats]
theorem after_o (c : Dev nD) (t : Fin cfg0.N) : (dats m 0 c).after 2 t = slab (blockAt m c 0 t) (blockAt m c 1 t) := by dsimp only [dats]

theorem before_q (c : Dev nD) (t : Fin cfg0.N) (d) : (dats m 0 c).before 0 t d = blockAt m c 0 t :=
  found_q m (dats m 0 c) (A_eq m c 0) (after_q m c) t d
theorem before_k (c : Dev nD) (t : Fin cfg0.N) (d) : (dats m 0 c).before 1 t d = blockAt m c 1 t :=
  found_k m (dats m 0 c) (A_eq m c 1) (after_k m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so `body_run` applies; the invariant and what the
    core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_k]
  rw [show (dats m 0 c).Φ t.succ = (dats m 0 c).Φ t.castSucc from rfl,
    show (dats m 0 c).owesAt () t.succ = (dats m 0 c).owesAt () t.castSucc from rfl,
    after_q, after_k, after_o]
  iintro ⟨HΦ, Ho, ⟨%d0, H0⟩, ⟨%d1, H1⟩, ⟨%d2, H2⟩⟩
  iapply (body_run c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact body_at m c t

/-! ## Dealing the embedding array between its two windows -/

/-- The buffers behind the windows' arrays are the embedding array and the result array. -/
theorem arrs_eq : Finset.univ.image (Pipeline.arrRef spec0) = [main_v7, main_v8].toFinset := by decide

/-- The two buffers, each whole at the full share at the entry contents, make the proof data's arrays at entry: the
    embedding array's full share is split into its two halves, one per input window. -/
theorem deal (c : Dev nD) :
    (Pipeline.arrBufs spec0 c (entry m c) : sProp 𝕄) ⊢ (dats m 0 c).arrays ((dats m 0 c).arrAt · 0) := by
  unfold Pipeline.arrBufs Dat.arrays
  rw [bigSep_eq_bigSepL_of_eq [main_v7, main_v8] arrs_eq (by decide), bigSep_W0]
  simp only [bigSepL_cons_cons, bigSepL_singleton]
  have e0 : (dats m 0 c).arrAt 0 0 = entry m c main_v7 := rfl
  have e1 : (dats m 0 c).arrAt 1 0 = entry m c main_v7 := rfl
  have e2 : (dats m 0 c).arrAt 2 0 = entry m c main_v8 := rfl
  have s0 : (dats m 0 c).share 0 = fullShare.left := rfl
  have s1 : (dats m 0 c).share 1 = fullShare.right := rfl
  have s2 : (dats m 0 c).share 2 = fullShare := rfl
  rw [e0, e1, e2, s0, s1, s2, View.set_whole, View.set_whole]
  refine (show iprop((((c : Thread nD τ).loc main_v7) ↦{fullShare} entry m c main_v7) ∗ (((c : Thread nD τ).loc main_v8) ↦{fullShare} entry m c main_v8))
    ⊢ (iprop((((c : Thread nD τ).loc main_v7) ↦{fullShare.left} entry m c main_v7) ∗ (((c : Thread nD τ).loc main_v7) ↦{fullShare.right} entry m c main_v7)
        ∗ (((c : Thread nD τ).loc main_v8) ↦{fullShare} entry m c main_v8)) : sProp 𝕄) from ?_)
  iintro ⟨H7, H8⟩
  ihave H := (pointsTo_share (PosShare.mem_left_op_right fullShare)).1 $$ H7
  icases H with ⟨HL, HR⟩
  isplitl [HL]; · iexact HL
  isplitl [HR]; · iexact HR
  iexact H8

/-! ## The run and the frame -/

set_option backward.isDefEq.respectTransparency.types false in
/-- From any memory with zero counters every weakly fair execution of @main terminates, and every final state has each
    window's array at what the write-backs leave there and every other unscoped buffer as the region found it. -/
theorem run_main : θ_run defs (onTc (τ := τ) (main (F := F))) (s₀ m ρ) (Pipeline.FramePost cfgs (dats m) 0 (entry m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := entry m) (hmain := main_upto m Variants.none)
    (hsplit := deal m) (hΦ := fun _ _ => rfl)

/-- The run with the result array named: after the region it holds the entry contents overwritten, point by point,
    by what the body left in the output window; the two arguments, which no window stages and no host operation
    writes, end as launched. -/
theorem run_named : θ_run defs (onTc (τ := τ) (main (F := F))) ⟨m, fun _ => 0, ρ⟩ (fun r => ∀ c : Dev nD,
      r.2.mem ((c.tc : Thread nD τ).loc main_v8) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 2,
      ((h c).2 main_arg0 (Pipeline.mem_restRefs_of main_arg0 (by decide) (by decide))).trans (entry_arg0 m c),
      ((h c).2 main_arg1 (Pipeline.mem_restRefs_of main_arg1 (by decide) (by decide))).trans (entry_arg1 m c)⟩) (run_main m ρ)

/-- The frame: @main runs to the end without a fault and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_named m ρ)

end Cert.Kernel.Frame

end
-- ==== Proof.FrameKI.lean ====
/-
  The frame of `KernelIdeal`: every weakly fair execution of @main terminates without a fault, and the argument arrays
  end unchanged; beyond that, the run names what the result array holds at the end.

  @main computes the embedding array E (a gather of the weight rows, converted) by ten host operations and then runs
  one pipelined region over a 16 × 4 grid. The region stages E TWICE: window 0 takes the 512 query rows of batch b
  that the point (b, j) works on, window 1 all 2048 rows of batch b; window 2 is the 512 × 2048 slab of the result
  the point writes. Because both input windows stage blocks of one array, E's buffer is held at one half of the
  full share by each of them (`deal`). The body loads both blocks, stores one value computed from them over the
  whole output block, and keeps nothing from point to point.
-/
import proofs.«149316_j42348377539154_1_alg».proof.Proof.Gen.KernelIdeal.Launch
import proofs.«149316_j42348377539154_1_alg».proof.Proof.Gen.KernelIdeal.Skeleton
import proofs.«149316_j42348377539154_1_alg».proof.Proof.Gen.KernelIdeal.Points
import proofs.«149316_j42348377539154_1_alg».proof.Proof.LibFrameShared
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch memory after the ten host operations. -/
abbrev entry (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem main_upto (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host operation writes the index array: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, Finset.mem_singleton]
    repeat' apply And.intro
    all_goals exact StableHlo.devRef_ne_of_ne (by decide)))

/-- No host operation writes the weight array: the region finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The query window's staging buffer holds the point's query block, for any proof data over the entry contents whose
    body leaves that block in place. It is fetched at every point. -/
theorem found_q {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The key window's staging buffer holds the batch's whole key block at every point: it is fetched when the batch
    changes, and between fetches its index does not move and the body leaves the block in place. -/
theorem found_k {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The body -/

abbrev allQ : Rect S1x512x64 := Rect.unit (s := S1x512x64) ![0, 0, 0] S1x512x64.size inb_S1x512x64_S1x512x64_0_0_0
abbrev allK : Rect S1x2048x64 := Rect.unit (s := S1x2048x64) ![0, 0, 0] S1x2048x64.size inb_S1x2048x64_S1x2048x64_0_0_0
abbrev allO : Rect S1x512x2048 := Rect.unit (s := S1x512x2048) ![0, 0, 0] S1x512x2048.size inb_S1x512x2048_S1x512x2048_0_0_0

/-- What the body leaves in the output window's buffer, from the two input blocks: its one store, over the whole
    block, of the payload of the two loads. -/
def slab (x0 : Vec F S1x512x64 .bf16) (x1 : Vec F S1x2048x64 .bf16) : Vec F S1x512x2048 .f32 :=
  View.canon [⟨allO, k0_pay1 (View.ld x0 allQ) (View.ld x1 allK)⟩]

/-- The one store covers the buffer. -/
theorem slab_cover (p0 : Vec F S1x512x2048 .f32) (y : S1x512x2048.Idx) :
    ∃ pc ∈ ([⟨allO, p0⟩] : List (View.Piece (Elt F) S1x512x2048 .f32)), y ∈ pc.1.set :=
  View.cover_of_tiled [⟨allO, p0⟩] S1x512x2048.size (by rfl) y

set_option maxHeartbeats 1000000 in
/-- The body on whole staging memrefs — the inputs' at contents `x0`, `x1`, the output's at anything — runs to its
    return with the inputs' as they were and the output's at `slab x0 x1`. -/
theorem body_run (c : Dev nD) (E : Set ℕ) (i : grid0.Coords) (arg2 : Memref sig .tc .vmem S1x512x64 .bf16) (harg2 : arg2.IsWhole)
    (arg3 : Memref sig .tc .vmem S1x2048x64 .bf16) (harg3 : arg3.IsWhole) (arg4 : Memref sig .tc .vmem S1x512x2048 .f32) (harg4 : arg4.IsWhole)
    (x0 : Vec F S1x512x64 .bf16) (x1 : Vec F S1x2048x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (slab x0 x1)) -∗ K ⟨⟩))
      ⊢ wp frame (wpE (defs₀ (F := F)) Variants.none c none) E (cc0__synergy_kernel i arg2 harg2 arg3 harg3 arg4 harg4) K := by
  simp only [cc0__synergy_kernel_eq_skeleton]; unfold cc0__synergy_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (slab_cover _)

/-! ## The proof data -/

/-- The pipeline's proof data on core `c`: the arrays as the region finds them; after the body each input's buffer
    at its block and the output's at `slab` of the two blocks; the invariant the scoped rest (the kernel has no
    scratch); nothing owed; the embedding array held half by the query window and half by the key window. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => slab (blockAt m c 0 t) (blockAt m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = entry m c (Pipeline.arrRef spec0 w) := by
  dsimp only [dats]

theorem after_q (c : Dev nD) (t : Fin cfg0.N) : (dats m 0 c).after 0 t = blockAt m c 0 t := by dsimp only [dats]
theorem after_k (c : Dev nD) (t : Fin cfg0.N) : (dats m 0 c).after 1 t = blockAt m c 1 t := by dsimp only [dats]
theorem after_o (c : Dev nD) (t : Fin cfg0.N) : (dats m 0 c).after 2 t = slab (blockAt m c 0 t) (blockAt m c 1 t) := by dsimp only [dats]

theorem before_q (c : Dev nD) (t : Fin cfg0.N) (d) : (dats m 0 c).before 0 t d = blockAt m c 0 t :=
  found_q m (dats m 0 c) (A_eq m c 0) (after_q m c) t d
theorem before_k (c : Dev nD) (t : Fin cfg0.N) (d) : (dats m 0 c).before 1 t d = blockAt m c 1 t :=
  found_k m (dats m 0 c) (A_eq m c 1) (after_k m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so `body_run` applies; the invariant and what the
    core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_k]
  rw [show (dats m 0 c).Φ t.succ = (dats m 0 c).Φ t.castSucc from rfl,
    show (dats m 0 c).owesAt () t.succ = (dats m 0 c).owesAt () t.castSucc from rfl,
    after_q, after_k, after_o]
  iintro ⟨HΦ, Ho, ⟨%d0, H0⟩, ⟨%d1, H1⟩, ⟨%d2, H2⟩⟩
  iapply (body_run c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact body_at m c t

/-! ## Dealing the embedding array between its two windows -/

/-- The buffers behind the windows' arrays are the embedding array and the result array. -/
theorem arrs_eq : Finset.univ.image (Pipeline.arrRef spec0) = [main_v7, main_v8].toFinset := by decide

/-- The two buffers, each whole at the full share at the entry contents, make the proof data's arrays at entry: the
    embedding array's full share is split into its two halves, one per input window. -/
theorem deal (c : Dev nD) :
    (Pipeline.arrBufs spec0 c (entry m c) : sProp 𝕄) ⊢ (dats m 0 c).arrays ((dats m 0 c).arrAt · 0) := by
  unfold Pipeline.arrBufs Dat.arrays
  rw [bigSep_eq_bigSepL_of_eq [main_v7, main_v8] arrs_eq (by decide), bigSep_W0]
  simp only [bigSepL_cons_cons, bigSepL_singleton]
  have e0 : (dats m 0 c).arrAt 0 0 = entry m c main_v7 := rfl
  have e1 : (dats m 0 c).arrAt 1 0 = entry m c main_v7 := rfl
  have e2 : (dats m 0 c).arrAt 2 0 = entry m c main_v8 := rfl
  have s0 : (dats m 0 c).share 0 = fullShare.left := rfl
  have s1 : (dats m 0 c).share 1 = fullShare.right := rfl
  have s2 : (dats m 0 c).share 2 = fullShare := rfl
  rw [e0, e1, e2, s0, s1, s2, View.set_whole, View.set_whole]
  refine (show iprop((((c : Thread nD τ).loc main_v7) ↦{fullShare} entry m c main_v7) ∗ (((c : Thread nD τ).loc main_v8) ↦{fullShare} entry m c main_v8))
    ⊢ (iprop((((c : Thread nD τ).loc main_v7) ↦{fullShare.left} entry m c main_v7) ∗ (((c : Thread nD τ).loc main_v7) ↦{fullShare.right} entry m c main_v7)
        ∗ (((c : Thread nD τ).loc main_v8) ↦{fullShare} entry m c main_v8)) : sProp 𝕄) from ?_)
  iintro ⟨H7, H8⟩
  ihave H := (pointsTo_share (PosShare.mem_left_op_right fullShare)).1 $$ H7
  icases H with ⟨HL, HR⟩
  isplitl [HL]; · iexact HL
  isplitl [HR]; · iexact HR
  iexact H8

/-! ## The run and the frame -/

set_option backward.isDefEq.respectTransparency.types false in
/-- From any memory with zero counters every weakly fair execution of @main terminates, and every final state has each
    window's array at what the write-backs leave there and every other unscoped buffer as the region found it. -/
theorem run_main : θ_run defs (onTc (τ := τ) (main (F := F))) (s₀ m ρ) (Pipeline.FramePost cfgs (dats m) 0 (entry m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := entry m) (hmain := main_upto m Variants.none)
    (hsplit := deal m) (hΦ := fun _ _ => rfl)

/-- The run with the result array named: after the region it holds the entry contents overwritten, point by point,
    by what the body left in the output window; the two arguments, which no window stages and no host operation
    writes, end as launched. -/
theorem run_named : θ_run defs (onTc (τ := τ) (main (F := F))) ⟨m, fun _ => 0, ρ⟩ (fun r => ∀ c : Dev nD,
      r.2.mem ((c.tc : Thread nD τ).loc main_v8) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 2,
      ((h c).2 main_arg0 (Pipeline.mem_restRefs_of main_arg0 (by decide) (by decide))).trans (entry_arg0 m c),
      ((h c).2 main_arg1 (Pipeline.mem_restRefs_of main_arg1 (by decide) (by decide))).trans (entry_arg1 m c)⟩) (run_main m ρ)

/-- The frame: @main runs to the end without a fault and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_named m ρ)

end Cert.KernelIdeal.Frame

end
-- ==== Proof.PayloadKI.lean ====
/-
  What the kernel body stores, read at one index, on the extended reals.

  The body takes the point's query block x0 (1 × 512 × 64) and the batch's key block x1 (1 × 2048 × 64), drops their
  unit axis, multiplies the 512 × 64 matrix by the TRANSPOSE of the 2048 × 64 one on the matrix unit into a zero
  accumulator (both operands are contracted over their feature axis), scales every entry by the float 0.125 and puts
  the unit axis back. At row r and column t that is  (∑ k < 64, x0[0, r, k] · x1[0, t, k]) · 0.125 .
-/
import proofs.«149316_j42348377539154_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## The matrix product's operand indices -/

/-- The left operand's row is the output's row. -/
theorem lhs_row (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
/-- The left operand's column is the contracted feature. -/
theorem lhs_feat (i : S512x2048.Idx) (q : dot_S512x64_S2048x64_S512x2048_1_1_0_0_n_n.contr.Idx) : (dot_S512x64_S2048x64_S512x2048_1_1_0_0_n_n.lhsIdx i q 1).val = (q ⟨0, by decide⟩).val :=
  dot_S512x64_S2048x64_S512x2048_1_1_0_0_n_n.lhsIdx_val_of_single rfl i q
/-- The right operand's row is the output's COLUMN: the right matrix enters transposed. -/
theorem rhs_row (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
/-- The right operand's column is the contracted feature. -/
theorem rhs_feat (i : S512x2048.Idx) (q : dot_S512x64_S2048x64_S512x2048_1_1_0_0_n_n.contr.Idx) : (dot_S512x64_S2048x64_S512x2048_1_1_0_0_n_n.rhsIdx i q 1).val = (q ⟨0, by decide⟩).val :=
  dot_S512x64_S2048x64_S512x2048_1_1_0_0_n_n.rhsIdx_val_of_single rfl i q

/-- The product of a 512 × 64 matrix with the transpose of a 2048 × 64 one into the zero accumulator, at (r, t): the
    sum over the 64 features of the products of row r of the one and row t of the other. -/
theorem product_apply (a : FVec Ideal S512x64 .bf16) (b : FVec Ideal S2048x64 .bf16) (r : Fin 512) (t : Fin 2048) :
    matmul dot_S512x64_S2048x64_S512x2048_1_1_0_0_n_n none a b (constant S512x2048 .f32 0x00000000#32) (ix2 r t) = ∑ k : Fin 64, a (ix2 r k) * b (ix2 t k) := by
  simp only [matmul]
  rw [Ideal.matmul_constant_zero_apply, ← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r t) ((contrEquiv1 dot_S512x64_S2048x64_S512x2048_1_1_0_0_n_n 64 rfl rfl).symm k) = ix2 r k := funext fun a => Fin.ext (by
    match a with
    | ⟨0, _⟩ => exact lhs_row _ _
    | ⟨1, _⟩ => exact (lhs_feat _ _).trans hk)
  have er : dot_S512x64_S2048x64_S512x2048_1_1_0_0_n_n.rhsIdx (ix2 r t) ((contrEquiv1 dot_S512x64_S2048x64_S512x2048_1_1_0_0_n_n 64 rfl rfl).symm k) = ix2 t k := funext fun a => Fin.ext (by
    match a with
    | ⟨0, _⟩ => exact rhs_row _ _
    | ⟨1, _⟩ => exact (rhs_feat _ _).trans hk)
  rw [el, er]

/-! ## The payload -/

/-- Dropping the unit axis of a 1 × n × 64 block: entry (r, k) is the block's (0, r, k). -/
theorem drop_apply {n : Nat} (x : (⟨3, ![1, n, 64]⟩ : Shape).Idx → EReal) (h : (⟨3, ![1, n, 64]⟩ : Shape).ShapeCasts ⟨2, ![n, 64]⟩)
    (r : Fin n) (k : Fin 64) : shapeCast (⟨2, ![n, 64]⟩ : Shape) x h (ix2 r k) = x (ix3 (0 : Fin 1) r k) := by
  refine (shapeCast_dropUnit_apply ![n, 64] x h (ix2 r k)).trans (congrArg x ?_)
  funext a; match a with | ⟨0, _⟩ => rfl | ⟨1, _⟩ => rfl | ⟨2, _⟩ => rfl

/-- The stored value at (0, r, t): the dot product of query row r and key row t, times the float 0.125. -/
theorem pay_apply (x0 : Vec Ideal S1x512x64 .bf16) (x1 : Vec Ideal S1x2048x64 .bf16) (r : Fin 512) (t : Fin 2048) :
    k0_pay1 (F := Ideal) x0 x1 (ix3 (0 : Fin 1) r t)
      = (∑ k : Fin 64, x0 (ix3 (0 : Fin 1) r k) * x1 (ix3 (0 : Fin 1) t k)) * Ideal.ofBits .f32 0x3E000000#32 := by
  unfold k0_pay1
  refine (shapeCast_addUnit_apply ![512, 2048] _ _ (ix3 (0 : Fin 1) r t)).trans ?_
  have hj : (fun a : Fin 2 => (ix3 (0 : Fin 1) r t : (⟨3, ![1, 512, 2048]⟩ : Shape).Idx) a.succ) = ix2 r t :=
    funext fun a => by match a with | ⟨0, _⟩ => rfl | ⟨1, _⟩ => rfl
  rw [hj, mulf_apply, broadcast_apply, product_apply]
  simp only [drop_apply]
  rfl

end Cert.KernelIdeal.Payload

end
-- ==== Proof.Spec.lean ====
/-
  The function both programs compute, and the one law that joins them.

  From the embedding array E of shape [16, 2048, 64] — one 64-feature row per (batch, position) — the result at
  (b, s, t) is the dot product of rows (b, s) and (b, t), scaled by 1/√64:

      out[b, s, t] = (∑ k < 64, E[b, s, k] · E[b, t, k]) · (1/8).

  The kernel multiplies the sum by the float 0.125, which is exactly 1/8; the reference divides it by √64 computed on
  the host, which on the extended reals is exactly 8. Dividing by the nonzero real 8 is multiplying by 1/8 for EVERY
  extended real, infinite ones included, so the two scalings agree without any finiteness assumption.
-/
import Idealize.ShloMosaic.PureOps.Ideal
import Idealize.ShloMosaic.Lib.ValueIdx

noncomputable section

namespace Cert.Synergy

open Idealize.ShloMosaic

/-- The embedding array's shape: batch, position, feature. -/
abbrev EmbShape : Shape := ⟨3, ![16, 2048, 64]⟩
/-- The result's shape: batch, query position, key position. -/
abbrev OutShape : Shape := ⟨3, ![16, 2048, 2048]⟩

/-- Feature `k` of the QUERY row of result index `i` = (b, s, t): the embedding index (b, s, k). -/
abbrev queryIx (i : OutShape.Idx) (k : Fin 64) : EmbShape.Idx := fun a => match a with
  | ⟨0, _⟩ => ⟨(i 0).val, (i 0).isLt⟩
  | ⟨1, _⟩ => ⟨(i 1).val, (i 1).isLt⟩
  | ⟨2, _⟩ => ⟨k.val, k.isLt⟩

/-- Feature `k` of the KEY row of result index `i` = (b, s, t): the embedding index (b, t, k). -/
abbrev keyIx (i : OutShape.Idx) (k : Fin 64) : EmbShape.Idx := fun a => match a with
  | ⟨0, _⟩ => ⟨(i 0).val, (i 0).isLt⟩
  | ⟨1, _⟩ => ⟨(i 2).val, (i 2).isLt⟩
  | ⟨2, _⟩ => ⟨k.val, k.isLt⟩

/-- The scaled pairwise dot products of the embedding rows within each batch. The scale is kept as the kernel's
    float word for 0.125. -/
def pairDots (E : EmbShape.Idx → EReal) : OutShape.Idx → EReal := fun i =>
  (∑ k : Fin 64, E (queryIx i k) * E (keyIx i k)) * Ideal.ofBits .f32 0x3E000000#32

/-- The float 0.125 denotes the real 1/8. -/
theorem eighth : Ideal.ofBits .f32 0x3E000000#32 = ((1 / 8 : ℝ) : EReal) := by
  simp [Ideal.ofBits, Ideal.ieee, -EReal.coe_mul]; norm_num

/-- The float 64.0 denotes the real 64. -/
theorem sixtyFour : Ideal.ofBits .f32 0x42800000#32 = ((64 : ℝ) : EReal) := by
  simp [Ideal.ofBits, Ideal.ieee, -EReal.coe_mul]; norm_num

/-- The square root of 64 is 8, on the extended reals as on the reals. -/
theorem sqrt_sixtyFour : Ideal.sqrt ((64 : ℝ) : EReal) = ((8 : ℝ) : EReal) := by
  have h : Real.sqrt 64 = 8 := by
    rw [show (64 : ℝ) = 8 * 8 by norm_num]
    exact Real.sqrt_mul_self (by norm_num)
  rw [Ideal.sqrt_coe, if_neg (by norm_num), h]

/-- Multiplying by the float 0.125 is dividing by the host's √64.0, for every extended real. -/
theorem scale_eq (x : EReal) :
    x * Ideal.ofBits .f32 0x3E000000#32 = Ideal.div x (Ideal.sqrt (Ideal.ofBits .f32 0x42800000#32)) := by
  rw [eighth, sixtyFour, sqrt_sixtyFour, Ideal.div_coe (by norm_num : (8 : ℝ) ≠ 0)]

end Cert.Synergy

end
-- ==== Proof.ValueKI.lean ====
/-
  The result array of the idealized kernel, as one function of the two arguments.

  Point (b, j) of the 16 × 4 grid stages the query block E[b, 512·j … 512·j + 511, :], the key block E[b, :, :] and
  writes the slab out[b, 512·j … 512·j + 511, :]. By the body's arithmetic (the payload read at an index) what it
  writes is that slab of `pairDots E`; the 64 slabs tile the result array, so after the run the array IS
  `pairDots E`. E itself, the array the region finds, is the gather of the weight rows at the (wrapped) indices:
  the conversion to the narrower float format is the identity on the extended reals.
-/
import proofs.«149316_j42348377539154_1_alg».proof.Proof.FrameKI
import proofs.«149316_j42348377539154_1_alg».proof.Proof.PayloadKI
import proofs.«149316_j42348377539154_1_alg».proof.Proof.Spec
import Idealize.ShloMosaic.Lib.Pipeline.Value
import Idealize.ShloMosaic.Lib.StableHlo.Run

set_option maxRecDepth 16384

noncomputable section

namespace Cert.KernelIdeal.Result

open Cert.KernelIdeal Cert.KernelIdeal.Gen Cert.KernelIdeal.Frame Cert.Synergy
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## One point's slab -/

/-- If the query block's row r is row `queryIx i` of E and the key block's row t is row `keyIx i` of E, the stored
    value at (0, r, t) is `pairDots E` at `i`. -/
theorem slab_read (E : EmbShape.Idx → EReal) (x0 : Vec Ideal S1x512x64 .bf16) (x1 : Vec Ideal S1x2048x64 .bf16)
    (i : OutShape.Idx) (r : Fin 512) (t : Fin 2048)
    (h0 : ∀ k : Fin 64, x0 (ix3 (0 : Fin 1) r k) = E (queryIx i k))
    (h1 : ∀ k : Fin 64, x1 (ix3 (0 : Fin 1) t k) = E (keyIx i k)) :
    k0_pay1 (F := Ideal) x0 x1 (ix3 (0 : Fin 1) r t) = pairDots E i := by
  rw [Payload.pay_apply]
  unfold pairDots
  simp only [h0, h1]

theorem zero3 : (![0, 0, 0] : Fin 3 → Nat) = fun _ => 0 := funext fun a => by fin_cases a <;> rfl

/-- The printed index maps over the grid: the query window moves with the output window along batch and row block,
    the key window along batch only, and nothing moves along the last axis. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0 ∧ win0_2.index t (0 : Fin 3) ≤ 15 ∧ win0_2.index t (1 : Fin 3) ≤ 3 :=
  (by decide +kernel : ∀ t : Fin grid0.N, _)

/-- Every (batch, row block) is some point's. -/
theorem idx_onto : ∀ (b : Fin 16) (j : Fin 4), ∃ t : Fin cfg0.N, win0_2.index t = ![b.val, j.val, 0] :=
  (by decide +kernel : ∀ (b : Fin 16) (j : Fin 4), ∃ t : Fin grid0.N, win0_2.index t = ![b.val, j.val, 0])

/-- What point `t` writes back is its block of `pairDots` of the embedding array the region finds. -/
theorem flushed_eq (c : Dev nD) (t : Fin cfg0.N) :
    (dats m 0 c).flushed 2 t = ((cfg0.win 2).blk t).view.read (Elt Ideal) (pairDots (entry m c main_v7)) := by
  show (cfg0.win 2).cut (grid0.coords t) ((dats m 0 c).after 2 t) = _
  rw [after_o]
  unfold slab
  rw [View.canon_unit_zero zero3]
  simp only [View.ld_unit_zero (S := S1x512x64) zero3, View.ld_unit_zero (S := S1x2048x64) zero3]
  obtain ⟨e00, e01, e02, e10, e11, e12, e22, -, -⟩ := idx_facts t
  have key : ∀ j : S1x512x2048.Idx, k0_pay1 (F := Ideal) (blockAt m c 0 t) (blockAt m c 1 t) j
      = pairDots (entry m c main_v7) (((cfg0.win 2).blk t).view.emb j) := by
    intro j
    obtain ⟨z, r, tt, rfl⟩ : ∃ (z : Fin 1) (r : Fin 512) (tt : Fin 2048), j = ix3 z r tt := ⟨j 0, j 1, j 2, eq_ix3 j⟩
    obtain rfl : z = 0 := Subsingleton.elim _ _
    refine slab_read (entry m c main_v7) _ _ _ r tt (fun k => ?_) (fun k => ?_)
    · show entry m c main_v7 (((cfg0.win 0).blk t).view.emb (ix3 (0 : Fin 1) r k)) = _
      refine congrArg (entry m c main_v7) (funext fun a => Fin.ext ?_)
      match a with
      | ⟨0, _⟩ => show win0_0.index t (0 : Fin 3) * 1 + 1 * 0 = win0_2.index t (0 : Fin 3) * 1 + 1 * 0; omega
      | ⟨1, _⟩ => show win0_0.index t (1 : Fin 3) * 512 + 1 * r.val = win0_2.index t (1 : Fin 3) * 512 + 1 * r.val; omega
      | ⟨2, _⟩ => show win0_0.index t (2 : Fin 3) * 64 + 1 * k.val = k.val; omega
    · show entry m c main_v7 (((cfg0.win 1).blk t).view.emb (ix3 (0 : Fin 1) tt k)) = _
      refine congrArg (entry m c main_v7) (funext fun a => Fin.ext ?_)
      match a with
      | ⟨0, _⟩ => show win0_1.index t (0 : Fin 3) * 1 + 1 * 0 = win0_2.index t (0 : Fin 3) * 1 + 1 * 0; omega
      | ⟨1, _⟩ => show win0_1.index t (1 : Fin 3) * 2048 + 1 * tt.val = win0_2.index t (2 : Fin 3) * 2048 + 1 * tt.val; omega
      | ⟨2, _⟩ => show win0_1.index t (2 : Fin 3) * 64 + 1 * k.val = k.val; omega
  funext j
  exact key j

/-- An index of the result array is in point `t`'s block iff each coordinate is in the block's range on its axis. -/
theorem mem_blk (t : Fin cfg0.N) (i : S16x2048x2048.Idx) :
    i ∈ ((cfg0.win 2).blk t).view.set ↔ ∀ a : Fin 3, win0_2.index t a * S1x512x2048.size a ≤ (i a).val ∧ (i a).val < win0_2.index t a * S1x512x2048.size a + S1x512x2048.size a := by
  show i ∈ ((View.whole main_v8).slice (win0_2.rect t)).set ↔ _
  rw [View.set_slice_whole, Rect.mem_set_unit]
  exact Iff.rfl

/-- The slabs tile the result array: index (b, s, ·) lies in the block of the point with batch b and row block s / 512. -/
theorem cover (i : S16x2048x2048.Idx) :
    ∃ t : Fin cfg0.N, (cfg0.win 2).flush t = true ∧ i ∈ ((cfg0.win 2).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 2048 ≤ (i 2).val ∧ (i 2).val < win0_2.index t (2 : Fin 3) * 2048 + 2048; omega

/-- After the run the result array is `pairDots` of the embedding array the region finds. -/
theorem final (c : Dev nD) : (dats m 0 c).arrAt 2 cfg0.N = pairDots (entry m c main_v7) :=
  (dats m 0 c).arrAt_eq_of_cover 2 (pairDots (entry m c main_v7)) (fun t _ => flushed_eq m c t) cover

/-! ## The embedding array from the arguments -/

/-- The embeddings of the positions' tokens: a negative index wraps once around the vocabulary, then the weight row
    at the index is gathered. -/
def embOf (idx : (⟨S16x2048, .i32⟩ : BufTy).Contents (Elt Ideal)) (wt : (⟨S32000x64, .f32⟩ : BufTy).Contents (Elt Ideal)) :
    (⟨S16x2048x64, .f32⟩ : BufTy).Contents (Elt Ideal) :=
  Host.gather gather_S32000x64_S16x2048x1_S16x2048x64_2_0_n_n_0_2_164 wt
    (broadcastInDim S16x2048x1 ![0, 1] bcast_S16x2048_S16x2048x1_0_1
      (select (cmpi .slt idx (broadcastInDim S16x2048 ![] bcast_S_S16x2048 (constantI S_ 32 0#32)))
        (addi idx (broadcastInDim S16x2048 ![] bcast_S_S16x2048 (constantI S_ 32 32000#32))) idx))

/-- The array both input windows stage is the embedding array of the arguments: the host's conversion to the narrower
    format changes nothing on the extended reals. -/
theorem entry_emb (c : Dev nD) :
    (entry m c main_v7 : S16x2048x64.Idx → EReal) = embOf (m ((c.tc : Thread nD τ).loc main_arg0)) (m ((c.tc : Thread nD τ).loc main_arg1)) := by
  dsimp only [entry, hostOps0]
  after_results
  rfl

/-- The idealized kernel's run with its result named as a function of the arguments. -/
theorem run : θ_run defs (onTc (τ := τ) (main (F := Ideal))) ⟨m, fun _ => 0, ρ⟩ (fun r => ∀ c : Dev nD,
      r.2.mem ((c.tc : Thread nD τ).loc main_v8) = pairDots (embOf (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((final m c).trans (congrArg pairDots (entry_emb m c))), (h c).2⟩) (run_named m ρ)

end Cert.KernelIdeal.Result

end
-- ==== Proof.RefSide.lean ====
/-
  The reference's result, as the same function of its embeddings.

  The reference gathers the same embedding rows, takes within each batch the product of the embedding matrix with its
  own transpose (a host dot_general batched over b and contracted over the feature axis: at (b, s, t) the sum over
  k of E[b, s, k] · E[b, t, k]), and divides every entry by √64.0 computed on the host. By the scaling law that is
  `pairDots` of the gathered embeddings.
-/
import proofs.«149316_j42348377539154_1_alg».proof.Proof.Gen.ReferenceIdeal.Read
import proofs.«149316_j42348377539154_1_alg».proof.Proof.Spec

noncomputable section

namespace Cert.ReferenceIdeal.RefValue

open Cert.ReferenceIdeal Cert.ReferenceIdeal.Gen Cert.ReferenceIdeal.Read Cert.Synergy Idealize.ShloMosaic

/-- The reference's last stage is `pairDots` of its gather stage: the dot_general read at an index is the sum over the
    features, and the quotient by the host's √64.0 is the product with the float 0.125. -/
theorem result_eq (x0 : (⟨S16x2048, .i32⟩ : BufTy).Contents (Elt Ideal)) (x1 : (⟨S32000x64, .f32⟩ : BufTy).Contents (Elt Ideal)) :
    val_main_v10 (F := Ideal) x0 x1 = pairDots (val_main_v6 (F := Ideal) x0 x1) := by
  funext i
  rw [val_main_v10_apply, val_main_v7_apply, val_main_v9_apply, val_main_v8_apply, val_main_cst_apply]
  unfold pairDots
  simp only [Ideal.hostDivf_def, Ideal.hostUnary_sqrt_def, Ideal.ofBits_def]
  exact (scale_eq _).symm

end Cert.ReferenceIdeal.RefValue

end
-- ==== Proof.lean ====
/-
  Pairwise scaled dot products of token embeddings: a Pallas kernel against its jnp reference.

  Both programs gather, for each of 16 × 2048 positions, the 64-feature weight row of the position's token (a
  negative token index wrapping once around the vocabulary of 32000), giving an embedding array E[b, s, k], and return

      out[b, s, t] = (∑ k < 64, E[b, s, k] · E[b, t, k]) / √64 .

  The kernel converts E to a narrower float format (the identity on the extended reals), and for each batch b and each
  block of 512 query positions multiplies the 512 × 64 query block by the transpose of the batch's 2048 × 64 key
  block on the matrix unit, scaling by the float 0.125 = 1/8. The reference takes one batched product of E with its
  transpose and divides by √64.0 = 8. On the extended reals both are the same sum times 1/8 (dividing by the nonzero
  real 8 is multiplying by 1/8 at every extended real), so the results agree for ALL inputs: the precondition that
  the weights are finite is never used.

  The three frames. The kernel reads ONE array, E, through two windows (the query block and the key block), so the
  array's buffer is held at one half of the full share by each window; apart from that its run is the plain pipelined
  one: every point fetches its blocks, runs a body that keeps nothing between points, and writes its slab of the
  result back; the arguments are not staged at all and no host operation writes them. This is proved once for the
  printed kernel at the bit-exact instance and once for its idealization. The reference has no kernel: its frame is its
  run with the result dropped. The idealization rewrote no operation, so there is nothing to preserve.
-/
import proofs.«149316_j42348377539154_1_alg».proof.Defs
import proofs.«149316_j42348377539154_1_alg».proof.Proof.Gen.Kernel
import proofs.«149316_j42348377539154_1_alg».proof.Proof.Gen.KernelIdeal
import proofs.«149316_j42348377539154_1_alg».proof.Proof.Gen.ReferenceIdeal
import proofs.«149316_j42348377539154_1_alg».proof.Proof.Gen.ReferenceIdeal.Read
import proofs.«149316_j42348377539154_1_alg».proof.Proof.Gen.Pre_finite_inputs
import proofs.«149316_j42348377539154_1_alg».proof.Proof.FrameK
import proofs.«149316_j42348377539154_1_alg».proof.Proof.ValueKI
import proofs.«149316_j42348377539154_1_alg».proof.Proof.RefSide

noncomputable section

namespace Cert.Proof

open Idealize.ShloMosaic Idealize.ShloMosaic.TcCoe Idealize.SL.Sem Cert.Synergy

/-- The two programs gather the same embeddings: the same operations with the same dimension records. -/
theorem emb_same (x0 : (⟨Cert.ReferenceIdeal.S16x2048, .i32⟩ : BufTy).Contents (Elt Ideal))
    (x1 : (⟨Cert.ReferenceIdeal.S32000x64, .f32⟩ : BufTy).Contents (Elt Ideal)) :
    Cert.ReferenceIdeal.Read.val_main_v6 (F := Ideal) x0 x1 = Cert.KernelIdeal.Result.embOf x0 x1 := rfl

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with `pairDots` of the gathered embeddings. -/
theorem algebraic : Cert.algebraic_KernelIdeal_ReferenceIdeal := by
  intro m ρ m' ρ' _ hagree
  refine ⟨fun c => pairDots (Cert.KernelIdeal.Result.embOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq, (hagree c).1, (hagree c).2]
  exact congrArg pairDots (emb_same _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
